-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x512x512 : Shape := ⟨4, ![4, 64, 512, 512]⟩
abbrev S64x3x3 : Shape := ⟨3, ![64, 3, 3]⟩
abbrev S_ : Shape := ⟨0, ![]⟩

class Facts : Prop where
  bcast_S_S4x64x512x512 : S_.BroadcastsInDim S4x64x512x512 (![] : Fin 0 → Fin S4x64x512x512.rank)
  reducesTo_S4x64x512x512_S_d0_1_2_3 : S4x64x512x512.ReducesTo [0, 1, 2, 3] S_
  h_S_ : 0 < S_.numel
  bcast_S_S64x3x3 : S_.BroadcastsInDim S64x3x3 (![] : Fin 0 → Fin S64x3x3.rank)
  reducesTo_S64x3x3_S_d0_1_2 : S64x3x3.ReducesTo [0, 1, 2] S_

variable [Facts]

def fn {F : FTy → Type} [FloatOps F] (main_arg0 : FVec F S4x64x512x512 .f32) (main_arg1 : FVec F S64x3x3 .f32) : IVec S_ 1 :=
  let main_v0 : FVec F S4x64x512x512 .f32 := Host.absf main_arg0
  let main_cst : FVec F S_ .f32 := constant S_ .f32 0x7F800000#32
  let main_v1 : FVec F S4x64x512x512 .f32 := broadcastInDim S4x64x512x512 ![] bcast_S_S4x64x512x512 main_cst
  let main_v2 : IVec S4x64x512x512 1 := cmpf .olt main_v0 main_v1
  let main_c : IVec S_ 1 := constantI S_ 1 1#1
  let main_v3 : IVec S_ 1 := (fun x v => Host.reduce IntOp.andi x v reducesTo_S4x64x512x512_S_d0_1_2_3 h_S_) main_v2 main_c
  let main_v4 : FVec F S64x3x3 .f32 := Host.absf main_arg1
  let main_cst_0 : FVec F S_ .f32 := constant S_ .f32 0x7F800000#32
  let main_v5 : FVec F S64x3x3 .f32 := broadcastInDim S64x3x3 ![] bcast_S_S64x3x3 main_cst_0
  let main_v6 : IVec S64x3x3 1 := cmpf .olt main_v4 main_v5
  let main_c_1 : IVec S_ 1 := constantI S_ 1 1#1
  let main_v7 : IVec S_ 1 := (fun x v => Host.reduce IntOp.andi x v reducesTo_S64x3x3_S_d0_1_2 h_S_) main_v6 main_c_1
  let main_v8 : IVec S_ 1 := andi main_v3 main_v7
  main_v8
-- ==== Kernel.lean ====
abbrev S4x64x512x512 : Shape := ⟨4, ![4, 64, 512, 512]⟩
abbrev S64x3x3 : Shape := ⟨3, ![64, 3, 3]⟩
abbrev S1x4x512x512 : Shape := ⟨4, ![1, 4, 512, 512]⟩
abbrev S4x3x3 : Shape := ⟨3, ![4, 3, 3]⟩
abbrev S4x512x512 : Shape := ⟨3, ![4, 512, 512]⟩
abbrev S4x1x512 : Shape := ⟨3, ![4, 1, 512]⟩
abbrev S4x513x512 : Shape := ⟨3, ![4, 513, 512]⟩
abbrev S4x514x512 : Shape := ⟨3, ![4, 514, 512]⟩
abbrev S4x514x1 : Shape := ⟨3, ![4, 514, 1]⟩
abbrev S4x514x513 : Shape := ⟨3, ![4, 514, 513]⟩
abbrev S4x514x514 : Shape := ⟨3, ![4, 514, 514]⟩
abbrev S4x1x1 : Shape := ⟨3, ![4, 1, 1]⟩
abbrev S4 : Shape := ⟨1, ![4]⟩
abbrev S4x64x262144 : Shape := ⟨3, ![4, 64, 262144]⟩

abbrev nBuf : Space → Nat
  | .hbm => 4
  | .vmem => 6
  | .smem => 0
  | _ => 0

abbrev bufTy : (tb : Table) → Fin (tcTables nBuf tb) → BufTy
  | .hbm, ⟨0, _⟩ => ⟨S4x64x512x512, .f32⟩
  | .hbm, ⟨1, _⟩ => ⟨S64x3x3, .f32⟩
  | .hbm, ⟨2, _⟩ => ⟨S4x64x512x512, .f32⟩
  | .hbm, ⟨3, _⟩ => ⟨S4x64x262144, .f32⟩
  | .local _ .vmem, ⟨0, _⟩ => ⟨S1x4x512x512, .f32⟩
  | .local _ .vmem, ⟨1, _⟩ => ⟨S1x4x512x512, .f32⟩
  | .local _ .vmem, ⟨2, _⟩ => ⟨S4x3x3, .f32⟩
  | .local _ .vmem, ⟨3, _⟩ => ⟨S4x3x3, .f32⟩
  | .local _ .vmem, ⟨4, _⟩ => ⟨S1x4x512x512, .f32⟩
  | .local _ .vmem, ⟨5, _⟩ => ⟨S1x4x512x512, .f32⟩
  | _, _ => ⟨S4x64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x3x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x4x512x512_S1x4x512x512_0_0_0_0 : ∀ a, (![0, 0, 0, 0] : Fin 4 → Nat) a + S1x4x512x512.size a ≤ S1x4x512x512.size a
  h_S1x4x512x512 : 0 < S1x4x512x512.numel
  shapeCasts_S1x4x512x512_S4x512x512 : S1x4x512x512.ShapeCasts S4x512x512
  inb_S4x3x3_S4x3x3_0_0_0 : ∀ a, (![0, 0, 0] : Fin 3 → Nat) a + S4x3x3.size a ≤ S4x3x3.size a
  h_S4x3x3 : 0 < S4x3x3.numel
  concatenates_S4x1x512_S4x512x512_S4x513x512_d1 : Shape.Concatenates [S4x1x512, S4x512x512] S4x513x512 1
  concatenates_S4x513x512_S4x1x512_S4x514x512_d1 : Shape.Concatenates [S4x513x512, S4x1x512] S4x514x512 1
  concatenates_S4x514x1_S4x514x512_S4x514x513_d2 : Shape.Concatenates [S4x514x1, S4x514x512] S4x514x513 2
  concatenates_S4x514x513_S4x514x1_S4x514x514_d2 : Shape.Concatenates [S4x514x513, S4x514x1] S4x514x514 2
  slices_S4x514x514_o0_0_0_S4x512x512 : S4x514x514.Slices ![0, 0, 0] S4x512x512
  slices_S4x3x3_o0_0_0_S4x1x1 : S4x3x3.Slices ![0, 0, 0] S4x1x1
  shapeCasts_S4x1x1_S4 : S4x1x1.ShapeCasts S4
  shapeCasts_S4_S4x1x1 : S4.ShapeCasts S4x1x1
  broadcasts_S4x1x1_S4x512x512 : S4x1x1.Broadcasts S4x512x512
  slices_S4x514x514_o0_0_1_S4x512x512 : S4x514x514.Slices ![0, 0, 1] S4x512x512
  slices_S4x3x3_o0_0_1_S4x1x1 : S4x3x3.Slices ![0, 0, 1] S4x1x1
  slices_S4x514x514_o0_0_2_S4x512x512 : S4x514x514.Slices ![0, 0, 2] S4x512x512
  slices_S4x3x3_o0_0_2_S4x1x1 : S4x3x3.Slices ![0, 0, 2] S4x1x1
  slices_S4x514x514_o0_1_0_S4x512x512 : S4x514x514.Slices ![0, 1, 0] S4x512x512
  slices_S4x3x3_o0_1_0_S4x1x1 : S4x3x3.Slices ![0, 1, 0] S4x1x1
  slices_S4x514x514_o0_1_1_S4x512x512 : S4x514x514.Slices ![0, 1, 1] S4x512x512
  slices_S4x3x3_o0_1_1_S4x1x1 : S4x3x3.Slices ![0, 1, 1] S4x1x1
  slices_S4x514x514_o0_1_2_S4x512x512 : S4x514x514.Slices ![0, 1, 2] S4x512x512
  slices_S4x3x3_o0_1_2_S4x1x1 : S4x3x3.Slices ![0, 1, 2] S4x1x1
  slices_S4x514x514_o0_2_0_S4x512x512 : S4x514x514.Slices ![0, 2, 0] S4x512x512
  slices_S4x3x3_o0_2_0_S4x1x1 : S4x3x3.Slices ![0, 2, 0] S4x1x1
  slices_S4x514x514_o0_2_1_S4x512x512 : S4x514x514.Slices ![0, 2, 1] S4x512x512
  slices_S4x3x3_o0_2_1_S4x1x1 : S4x3x3.Slices ![0, 2, 1] S4x1x1
  slices_S4x514x514_o0_2_2_S4x512x512 : S4x514x514.Slices ![0, 2, 2] S4x512x512
  slices_S4x3x3_o0_2_2_S4x1x1 : S4x3x3.Slices ![0, 2, 2] S4x1x1
  shapeCasts_S4x512x512_S1x4x512x512 : S4x512x512.ShapeCasts S1x4x512x512
  shapeCasts_S4x64x512x512_S4x64x262144 : S4x64x512x512.ShapeCasts S4x64x262144
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x512x512.size a ≤ S4x64x512x512.size a
  hwx0_0 : ∀ i : grid0.Coords, EltTy.bits .f32 = 32 ∨ (Rect.block (s := S4x64x512x512) S1x4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3x3.size a ≤ S64x3x3.size a
  hwx0_1 : ∀ i : grid0.Coords, EltTy.bits .f32 = 32 ∨ (Rect.block (s := S64x3x3) S4x3x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x512x512.size a ≤ S4x64x512x512.size a
  hwx0_2 : ∀ i : grid0.Coords, EltTy.bits .f32 = 32 ∨ (Rect.block (s := S4x64x512x512) S1x4x512x512.size (cc0_transform_2 i) (hinb0_2 i)).WholeWords (EltTy.packing .f32)

variable [Facts₀]

abbrev win0_0 : Pipeline.Window sig grid0 :=
  Pipeline.Window.ofSpec (Memref.whole main_arg0) S1x4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x3x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x64x512x512 : Shape := ⟨4, ![4, 64, 512, 512]⟩
abbrev S64x3x3 : Shape := ⟨3, ![64, 3, 3]⟩
abbrev S_ : Shape := ⟨0, ![]⟩
abbrev S4x64x514x514 : Shape := ⟨4, ![4, 64, 514, 514]⟩
abbrev S64x1x1 : Shape := ⟨3, ![64, 1, 1]⟩
abbrev S64 : Shape := ⟨1, ![64]⟩
abbrev S1x64x1x1 : Shape := ⟨4, ![1, 64, 1, 1]⟩
abbrev S4x64x262144 : Shape := ⟨3, ![4, 64, 262144]⟩

abbrev nBuf : Space → Nat
  | .hbm => 68
  | .vmem => 0
  | .smem => 0
  | _ => 0

abbrev bufTy : (tb : Table) → Fin (tcTables nBuf tb) → BufTy
  | .hbm, ⟨0, _⟩ => ⟨S4x64x512x512, .f32⟩
  | .hbm, ⟨1, _⟩ => ⟨S64x3x3, .f32⟩
  | .hbm, ⟨2, _⟩ => ⟨S_, .i32⟩
  | .hbm, ⟨3, _⟩ => ⟨S_, .f32⟩
  | .hbm, ⟨4, _⟩ => ⟨S4x64x514x514, .f32⟩
  | .hbm, ⟨5, _⟩ => ⟨S4x64x512x512, .f32⟩
  | .hbm, ⟨6, _⟩ => ⟨S64x1x1, .f32⟩
  | .hbm, ⟨7, _⟩ => ⟨S64, .f32⟩
  | .hbm, ⟨8, _⟩ => ⟨S1x64x1x1, .f32⟩
  | .hbm, ⟨9, _⟩ => ⟨S4x64x512x512, .f32⟩
  | .hbm, ⟨10, _⟩ => ⟨S4x64x512x512, .f32⟩
  | .hbm, ⟨11, _⟩ => ⟨S4x64x512x512, .f32⟩
  | .hbm, ⟨12, _⟩ => ⟨S64x1x1, .f32⟩
  | .hbm, ⟨13, _⟩ => ⟨S64, .f32⟩
  | .hbm, ⟨14, _⟩ => ⟨S1x64x1x1, .f32⟩
  | .hbm, ⟨15, _⟩ => ⟨S4x64x512x512, .f32⟩
  | .hbm, ⟨16, _⟩ => ⟨S4x64x512x512, .f32⟩
  | .hbm, ⟨17, _⟩ => ⟨S4x64x512x512, .f32⟩
  | .hbm, ⟨18, _⟩ => ⟨S4x64x512x512, .f32⟩
  | .hbm, ⟨19, _⟩ => ⟨S64x1x1, .f32⟩
  | .hbm, ⟨20, _⟩ => ⟨S64, .f32⟩
  | .hbm, ⟨21, _⟩ => ⟨S1x64x1x1, .f32⟩
  | .hbm, ⟨22, _⟩ => ⟨S4x64x512x512, .f32⟩
  | .hbm, ⟨23, _⟩ => ⟨S4x64x512x512, .f32⟩
  | .hbm, ⟨24, _⟩ => ⟨S4x64x512x512, .f32⟩
  | .hbm, ⟨25, _⟩ => ⟨S4x64x512x512, .f32⟩
  | .hbm, ⟨26, _⟩ => ⟨S64x1x1, .f32⟩
  | .hbm, ⟨27, _⟩ => ⟨S64, .f32⟩
  | .hbm, ⟨28, _⟩ => ⟨S1x64x1x1, .f32⟩
  | .hbm, ⟨29, _⟩ => ⟨S4x64x512x512, .f32⟩
  | .hbm, ⟨30, _⟩ => ⟨S4x64x512x512, .f32⟩
  | .hbm, ⟨31, _⟩ => ⟨S4x64x512x512, .f32⟩
  | .hbm, ⟨32, _⟩ => ⟨S4x64x512x512, .f32⟩
  | .hbm, ⟨33, _⟩ => ⟨S64x1x1, .f32⟩
  | .hbm, ⟨34, _⟩ => ⟨S64, .f32⟩
  | .hbm, ⟨35, _⟩ => ⟨S1x64x1x1, .f32⟩
  | .hbm, ⟨36, _⟩ => ⟨S4x64x512x512, .f32⟩
  | .hbm, ⟨37, _⟩ => ⟨S4x64x512x512, .f32⟩
  | .hbm, ⟨38, _⟩ => ⟨S4x64x512x512, .f32⟩
  | .hbm, ⟨39, _⟩ => ⟨S4x64x512x512, .f32⟩
  | .hbm, ⟨40, _⟩ => ⟨S64x1x1, .f32⟩
  | .hbm, ⟨41, _⟩ => ⟨S64, .f32⟩
  | .hbm, ⟨42, _⟩ => ⟨S1x64x1x1, .f32⟩
  | .hbm, ⟨43, _⟩ => ⟨S4x64x512x512, .f32⟩
  | .hbm, ⟨44, _⟩ => ⟨S4x64x512x512, .f32⟩
  | .hbm, ⟨45, _⟩ => ⟨S4x64x512x512, .f32⟩
  | .hbm, ⟨46, _⟩ => ⟨S4x64x512x512, .f32⟩
  | .hbm, ⟨47, _⟩ => ⟨S64x1x1, .f32⟩
  | .hbm, ⟨48, _⟩ => ⟨S64, .f32⟩
  | .hbm, ⟨49, _⟩ => ⟨S1x64x1x1, .f32⟩
  | .hbm, ⟨50, _⟩ => ⟨S4x64x512x512, .f32⟩
  | .hbm, ⟨51, _⟩ => ⟨S4x64x512x512, .f32⟩
  | .hbm, ⟨52, _⟩ => ⟨S4x64x512x512, .f32⟩
  | .hbm, ⟨53, _⟩ => ⟨S4x64x512x512, .f32⟩
  | .hbm, ⟨54, _⟩ => ⟨S64x1x1, .f32⟩
  | .hbm, ⟨55, _⟩ => ⟨S64, .f32⟩
  | .hbm, ⟨56, _⟩ => ⟨S1x64x1x1, .f32⟩
  | .hbm, ⟨57, _⟩ => ⟨S4x64x512x512, .f32⟩
  | .hbm, ⟨58, _⟩ => ⟨S4x64x512x512, .f32⟩
  | .hbm, ⟨59, _⟩ => ⟨S4x64x512x512, .f32⟩
  | .hbm, ⟨60, _⟩ => ⟨S4x64x512x512, .f32⟩
  | .hbm, ⟨61, _⟩ => ⟨S64x1x1, .f32⟩
  | .hbm, ⟨62, _⟩ => ⟨S64, .f32⟩
  | .hbm, ⟨63, _⟩ => ⟨S1x64x1x1, .f32⟩
  | .hbm, ⟨64, _⟩ => ⟨S4x64x512x512, .f32⟩
  | .hbm, ⟨65, _⟩ => ⟨S4x64x512x512, .f32⟩
  | .hbm, ⟨66, _⟩ => ⟨S4x64x512x512, .f32⟩
  | .hbm, ⟨67, _⟩ => ⟨S4x64x262144, .f32⟩
  | _, _ => ⟨S4x64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩

abbrev nD : Nat := 1
abbrev τ : Topo := Topo.v7x

variable {F : FTy → Type} [FloatOps F]

class Facts₀ : Prop where
  pads_S4x64x512x512_S4x64x514x514_000_000_110_110 : S4x64x512x512.Pads (![0, 0, 1, 1] : Fin 4 → Nat) ![0, 0, 1, 1] ![0, 0, 0, 0] S4x64x514x514
  h_S_ : 0 < S_.numel
  slices_S4x64x514x514_S4x64x512x512_0_0_0_0 : S4x64x514x514.Slices ![0, 0, 0, 0] S4x64x512x512
  slices_S64x3x3_S64x1x1_0_0_0 : S64x3x3.Slices ![0, 0, 0] S64x1x1
  shapeCasts_S64x1x1_S64 : S64x1x1.ShapeCasts S64
  bcast_S64_S1x64x1x1_1 : S64.BroadcastsInDim S1x64x1x1 (![1] : Fin 1 → Fin S1x64x1x1.rank)
  bcast_S1x64x1x1_S4x64x512x512_0_1_2_3 : S1x64x1x1.BroadcastsInDim S4x64x512x512 (![0, 1, 2, 3] : Fin 4 → Fin S4x64x512x512.rank)
  slices_S4x64x514x514_S4x64x512x512_0_0_0_1 : S4x64x514x514.Slices ![0, 0, 0, 1] S4x64x512x512
  slices_S64x3x3_S64x1x1_0_0_1 : S64x3x3.Slices ![0, 0, 1] S64x1x1
  slices_S4x64x514x514_S4x64x512x512_0_0_0_2 : S4x64x514x514.Slices ![0, 0, 0, 2] S4x64x512x512
  slices_S64x3x3_S64x1x1_0_0_2 : S64x3x3.Slices ![0, 0, 2] S64x1x1
  slices_S4x64x514x514_S4x64x512x512_0_0_1_0 : S4x64x514x514.Slices ![0, 0, 1, 0] S4x64x512x512
  slices_S64x3x3_S64x1x1_0_1_0 : S64x3x3.Slices ![0, 1, 0] S64x1x1
  slices_S4x64x514x514_S4x64x512x512_0_0_1_1 : S4x64x514x514.Slices ![0, 0, 1, 1] S4x64x512x512
  slices_S64x3x3_S64x1x1_0_1_1 : S64x3x3.Slices ![0, 1, 1] S64x1x1
  slices_S4x64x514x514_S4x64x512x512_0_0_1_2 : S4x64x514x514.Slices ![0, 0, 1, 2] S4x64x512x512
  slices_S64x3x3_S64x1x1_0_1_2 : S64x3x3.Slices ![0, 1, 2] S64x1x1
  slices_S4x64x514x514_S4x64x512x512_0_0_2_0 : S4x64x514x514.Slices ![0, 0, 2, 0] S4x64x512x512
  slices_S64x3x3_S64x1x1_0_2_0 : S64x3x3.Slices ![0, 2, 0] S64x1x1
  slices_S4x64x514x514_S4x64x512x512_0_0_2_1 : S4x64x514x514.Slices ![0, 0, 2, 1] S4x64x512x512
  slices_S64x3x3_S64x1x1_0_2_1 : S64x3x3.Slices ![0, 2, 1] S64x1x1
  slices_S4x64x514x514_S4x64x512x512_0_0_2_2 : S4x64x514x514.Slices ![0, 0, 2, 2] S4x64x512x512
  slices_S64x3x3_S64x1x1_0_2_2 : S64x3x3.Slices ![0, 2, 2] S64x1x1
  shapeCasts_S4x64x512x512_S4x64x262144 : S4x64x512x512.ShapeCasts S4x64x262144

variable [Facts₀]

class Facts : Prop extends Facts₀ where

variable [Facts]
-- ==== Proof.Dilation.lean ====
/-
  Grey-scale dilation of an image by a 3 x 3 structuring element, on the extended reals.

  For one image plane `x : 512 x 512` and one 3 x 3 table of weights `wt`, the dilated plane is

      D(h, w) = max over (i, j) in {0,1,2}^2 of ( xp(h + i, w + j) + wt(i, j) ),

  where `xp : 514 x 514` is `x` with a border of zeros one pixel wide (`xp(r, s) = x(r - 1, s - 1)` for
  `1 ≤ r, s ≤ 512`, and `0` on rows and columns `0` and `513`). The nine terms are combined in the fixed
  row-major order (0,0), (0,1), (0,2), (1,0), …, (2,2) as a left-nested maximum; no law of `max` or `+` is
  used anywhere, so nothing here depends on the entries being finite.

  The whole-array function `G` applies this to plane `(b, c)` of a `[4, 64, 512, 512]` array with the weights of
  channel `c` of a `[64, 3, 3]` array.
-/
import Idealize.ShloMosaic.PureOps.Ideal
import Idealize.ShloMosaic.Lib.ValueIdx

noncomputable section

namespace Cert.Dilation

open Idealize.ShloMosaic Idealize.ShloMosaic.ValueIdx

/-- The plane `x` with a border of zeros one pixel wide: entry `(r, s)` of the 514 x 514 plane is `x (r - 1, s - 1)`
    when both coordinates are in `1 … 512`, and zero on the four border lines. -/
def border (x : Fin 512 → Fin 512 → EReal) (r s : Fin 514) : EReal :=
  if h : (1 ≤ r.val ∧ r.val ≤ 512) ∧ (1 ≤ s.val ∧ s.val ≤ 512) then x ⟨r.val - 1, by omega⟩ ⟨s.val - 1, by omega⟩ else 0

/-- One term of the dilation at pixel `(h, w)`: the bordered plane at the pixel moved by `(i, j)`, plus weight `(i, j)`. -/
def tap (xp : Fin 514 → Fin 514 → EReal) (wt : Fin 3 → Fin 3 → EReal) (h w : Fin 512) (i j : Nat) (hi : i < 3) (hj : j < 3) : EReal :=
  xp ⟨h.val + i, by omega⟩ ⟨w.val + j, by omega⟩ + wt ⟨i, hi⟩ ⟨j, hj⟩

/-- The dilation at pixel `(h, w)`: the nine terms under a left-nested maximum, window position `(i, j)` in row-major order. -/
def dilate (xp : Fin 514 → Fin 514 → EReal) (wt : Fin 3 → Fin 3 → EReal) (h w : Fin 512) : EReal :=
  max (max (max (max (max (max (max (max
    (tap xp wt h w 0 0 (by omega) (by omega))
    (tap xp wt h w 0 1 (by omega) (by omega)))
    (tap xp wt h w 0 2 (by omega) (by omega)))
    (tap xp wt h w 1 0 (by omega) (by omega)))
    (tap xp wt h w 1 1 (by omega) (by omega)))
    (tap xp wt h w 1 2 (by omega) (by omega)))
    (tap xp wt h w 2 0 (by omega) (by omega)))
    (tap xp wt h w 2 1 (by omega) (by omega)))
    (tap xp wt h w 2 2 (by omega) (by omega))

/-- Pixel `(h, w)` of plane `(b, c)` of the result: plane `(b, c)` of `X`, bordered, dilated by the weights of channel `c`. -/
def at4 (X : (⟨4, ![4, 64, 512, 512]⟩ : Shape).Idx → EReal) (Wt : (⟨3, ![64, 3, 3]⟩ : Shape).Idx → EReal)
    (b : Fin 4) (c : Fin 64) (h w : Fin 512) : EReal :=
  dilate (border fun r s => X (ix4 b c r s)) (fun i j => Wt (ix3 c i j)) h w

/-- The result as one function of the two argument arrays, index by index. -/
def G (X : (⟨4, ![4, 64, 512, 512]⟩ : Shape).Idx → EReal) (Wt : (⟨3, ![64, 3, 3]⟩ : Shape).Idx → EReal) :
    (⟨4, ![4, 64, 512, 512]⟩ : Shape).Idx → EReal :=
  fun k => at4 X Wt (k 0) (k 1) (k 2) (k 3)

theorem G_ix4 (X : (⟨4, ![4, 64, 512, 512]⟩ : Shape).Idx → EReal) (Wt : (⟨3, ![64, 3, 3]⟩ : Shape).Idx → EReal)
    (b : Fin 4) (c : Fin 64) (h w : Fin 512) : G X Wt (ix4 b c h w) = at4 X Wt b c h w := rfl

/-- The dilation depends on the bordered plane and on the weights only through their values. -/
theorem dilate_congr {xp xp' : Fin 514 → Fin 514 → EReal} {wt wt' : Fin 3 → Fin 3 → EReal} (hx : xp = xp') (hw : wt = wt')
    (h w : Fin 512) : dilate xp wt h w = dilate xp' wt' h w := by rw [hx, hw]

end Cert.Dilation

end
-- ==== Proof.KernelBorder.lean ====
/-
  The kernel body builds the zero border of a [4, 512, 512] block by four concatenations: a row of zeros in front of
  and behind the rows (axis 1), then a column of zeros in front of and behind the columns (axis 2). Read at an index
  (channel, r, s) of the [4, 514, 514] result, each concatenation either falls into the zero piece or moves the
  coordinate by the extent of the piece in front. Composed, entry (r, s) of the bordered block is entry (r - 1, s - 1)
  of the block when 1 ≤ r, s ≤ 512 and zero otherwise: the function `Cert.Dilation.border` of the channel's plane.
-/
import proofs.«140813_j43525198578010_1_alg».proof.Proof.Gen.KernelIdeal.Skeleton
import proofs.«140813_j43525198578010_1_alg».proof.Proof.Dilation
import Idealize.ShloMosaic.Lib.Pipeline.Value
import Idealize.ShloMosaic.Lib.ValueIdx
import Idealize.ShloMosaic.Lib.ValueLayout

noncomputable section

namespace Cert.KernelIdeal.Block

open Idealize.ShloMosaic Idealize.ShloMosaic.ValueIdx Cert.KernelIdeal Cert.KernelIdeal.Gen Cert.Dilation

/-- The padding value the body converts from the integer 0 is the real number 0. -/
theorem pad_value : Scalar.sitofp (F := Ideal) .f32 (0#32 : BitVec 32) = (0 : EReal) := by
  rw [Ideal.scalar_sitofp_def]; simp

/-- A row of `z` in front of the rows: row 0 is `z`, row `r ≥ 1` is row `r - 1` of the block. -/
theorem rowFront (z : EReal) (u : FVec Ideal S4x512x512 .f32) (cc : Fin 4) (r : Fin 513) (s : Fin 512) :
    concatenate S4x513x512 1 [⟨S4x1x512, broadcast S4x1x512 z⟩, ⟨S4x512x512, u⟩] concatenates_S4x1x512_S4x512x512_S4x513x512_d1 (ix3 cc r s)
      = if h : 1 ≤ r.val then u (ix3 cc ⟨r.val - 1, by omega⟩ s) else z := by
  by_cases h : 1 ≤ r.val
  · rw [dif_pos h]
    exact concatenate_pair_apply_right (t := S4x513x512) (s₁ := S4x1x512) (s₂ := S4x512x512) 1 (broadcast S4x1x512 z) u _ (ix3 cc r s) rfl rfl (ix3 cc ⟨r.val - 1, by omega⟩ s)
      (fun b hb => match b, hb with
        | ⟨0, _⟩, _ => rfl
        | ⟨1, _⟩, hb => (hb (Fin.ext rfl)).elim
        | ⟨2, _⟩, _ => rfl)
      (by show r.val - 1 + 1 = r.val; omega)
  · rw [dif_neg h]
    exact concatenate_pair_apply_left (t := S4x513x512) (s₁ := S4x1x512) (s₂ := S4x512x512) 1 (broadcast S4x1x512 z) u _ (ix3 cc r s) rfl (ix3 cc (0 : Fin 1) s)
      (fun b => match b with
        | ⟨0, _⟩ => rfl
        | ⟨1, _⟩ => by show 0 = r.val; omega
        | ⟨2, _⟩ => rfl)

/-- A row of `z` behind the rows: row 513 is `z`, row `r ≤ 512` is row `r` of the operand. -/
theorem rowBack (z : EReal) (u : FVec Ideal S4x513x512 .f32) (cc : Fin 4) (r : Fin 514) (s : Fin 512) :
    concatenate S4x514x512 1 [⟨S4x513x512, u⟩, ⟨S4x1x512, broadcast S4x1x512 z⟩] concatenates_S4x513x512_S4x1x512_S4x514x512_d1 (ix3 cc r s)
      = if h : r.val ≤ 512 then u (ix3 cc ⟨r.val, by omega⟩ s) else z := by
  by_cases h : r.val ≤ 512
  · rw [dif_pos h]
    exact concatenate_pair_apply_left (t := S4x514x512) (s₁ := S4x513x512) (s₂ := S4x1x512) 1 u (broadcast S4x1x512 z) _ (ix3 cc r s) rfl (ix3 cc ⟨r.val, by omega⟩ s)
      (fun b => match b with
        | ⟨0, _⟩ => rfl
        | ⟨1, _⟩ => rfl
        | ⟨2, _⟩ => rfl)
  · rw [dif_neg h]
    exact concatenate_pair_apply_right (t := S4x514x512) (s₁ := S4x513x512) (s₂ := S4x1x512) 1 u (broadcast S4x1x512 z) _ (ix3 cc r s) rfl rfl (ix3 cc (0 : Fin 1) s)
      (fun b hb => match b, hb with
        | ⟨0, _⟩, _ => rfl
        | ⟨1, _⟩, hb => (hb (Fin.ext rfl)).elim
        | ⟨2, _⟩, _ => rfl)
      (by show 0 + 513 = r.val; omega)

/-- A column of `z` in front of the columns: column 0 is `z`, column `s ≥ 1` is column `s - 1` of the operand. -/
theorem colFront (z : EReal) (u : FVec Ideal S4x514x512 .f32) (cc : Fin 4) (r : Fin 514) (s : Fin 513) :
    concatenate S4x514x513 2 [⟨S4x514x1, broadcast S4x514x1 z⟩, ⟨S4x514x512, u⟩] concatenates_S4x514x1_S4x514x512_S4x514x513_d2 (ix3 cc r s)
      = if h : 1 ≤ s.val then u (ix3 cc r ⟨s.val - 1, by omega⟩) else z := by
  by_cases h : 1 ≤ s.val
  · rw [dif_pos h]
    exact concatenate_pair_apply_right (t := S4x514x513) (s₁ := S4x514x1) (s₂ := S4x514x512) 2 (broadcast S4x514x1 z) u _ (ix3 cc r s) rfl rfl (ix3 cc r ⟨s.val - 1, by omega⟩)
      (fun b hb => match b, hb with
        | ⟨0, _⟩, _ => rfl
        | ⟨1, _⟩, _ => rfl
        | ⟨2, _⟩, hb => (hb (Fin.ext rfl)).elim)
      (by show s.val - 1 + 1 = s.val; omega)
  · rw [dif_neg h]
    exact concatenate_pair_apply_left (t := S4x514x513) (s₁ := S4x514x1) (s₂ := S4x514x512) 2 (broadcast S4x514x1 z) u _ (ix3 cc r s) rfl (ix3 cc r (0 : Fin 1))
      (fun b => match b with
        | ⟨0, _⟩ => rfl
        | ⟨1, _⟩ => rfl
        | ⟨2, _⟩ => by show 0 = s.val; omega)

/-- A column of `z` behind the columns: column 513 is `z`, column `s ≤ 512` is column `s` of the operand. -/
theorem colBack (z : EReal) (u : FVec Ideal S4x514x513 .f32) (cc : Fin 4) (r : Fin 514) (s : Fin 514) :
    concatenate S4x514x514 2 [⟨S4x514x513, u⟩, ⟨S4x514x1, broadcast S4x514x1 z⟩] concatenates_S4x514x513_S4x514x1_S4x514x514_d2 (ix3 cc r s)
      = if h : s.val ≤ 512 then u (ix3 cc r ⟨s.val, by omega⟩) else z := by
  by_cases h : s.val ≤ 512
  · rw [dif_pos h]
    exact concatenate_pair_apply_left (t := S4x514x514) (s₁ := S4x514x513) (s₂ := S4x514x1) 2 u (broadcast S4x514x1 z) _ (ix3 cc r s) rfl (ix3 cc r ⟨s.val, by omega⟩)
      (fun b => match b with
        | ⟨0, _⟩ => rfl
        | ⟨1, _⟩ => rfl
        | ⟨2, _⟩ => rfl)
  · rw [dif_neg h]
    exact concatenate_pair_apply_right (t := S4x514x514) (s₁ := S4x514x513) (s₂ := S4x514x1) 2 u (broadcast S4x514x1 z) _ (ix3 cc r s) rfl rfl (ix3 cc r (0 : Fin 1))
      (fun b hb => match b, hb with
        | ⟨0, _⟩, _ => rfl
        | ⟨1, _⟩, _ => rfl
        | ⟨2, _⟩, hb => (hb (Fin.ext rfl)).elim)
      (by show 0 + 513 = s.val; omega)

/-- The bordered block of the body, read at (channel, r, s): the zero border of the channel's plane of the loaded block. -/
theorem bordered_apply (v0 : Vec Ideal S1x4x512x512 .f32) (cc : Fin 4) (r s : Fin 514) :
    k0_pay2 (F := Ideal) v0 (ix3 cc r s) = border (fun a b => v0 (ix4 (0 : Fin 1) cc a b)) r s := by
  unfold k0_pay2 border
  dsimp only
  rw [colBack]
  by_cases h4 : s.val ≤ 512
  · rw [dif_pos h4, colFront]
    by_cases h3 : 1 ≤ s.val
    · rw [dif_pos h3, rowBack]
      by_cases h2 : r.val ≤ 512
      · rw [dif_pos h2, rowFront]
        by_cases h1 : 1 ≤ r.val
        · rw [dif_pos h1, dif_pos ⟨⟨h1, h2⟩, ⟨h3, h4⟩⟩]
          exact shapeCast_1abc_abc_apply v0 _ cc _ _
        · rw [dif_neg h1, dif_neg (fun h => h1 h.1.1)]; exact pad_value
      · rw [dif_neg h2, dif_neg (fun h => h2 h.1.2)]; exact pad_value
    · rw [dif_neg h3, dif_neg (fun h => h3 h.2.1)]; exact pad_value
  · rw [dif_neg h4, dif_neg (fun h => h4 h.2.2)]; exact pad_value

end Cert.KernelIdeal.Block

end
-- ==== Proof.KernelBlock.lean ====
/-
  What the kernel body stores, read at an index of its [1, 4, 512, 512] output block.

  The body slices the bordered block at the nine window positions (i, j), adds to each slice the weight (channel, i, j)
  — taken out of the [4, 3, 3] weight block by a slice, two shape casts and a broadcast over the plane — and folds the
  nine sums under `max` in row-major order of (i, j). At (0, channel, h, w) that is the dilation of the channel's
  bordered plane by the channel's weights at pixel (h, w).
-/
import proofs.«140813_j43525198578010_1_alg».proof.Proof.Gen.KernelIdeal.Frame
import proofs.«140813_j43525198578010_1_alg».proof.Proof.KernelBorder

noncomputable section

namespace Cert.KernelIdeal.Block

open Idealize.ShloMosaic Idealize.ShloMosaic.ValueIdx Cert.KernelIdeal Cert.KernelIdeal.Gen Cert.Dilation

/-- A slice of the bordered block at offsets (0, i, j) exists only for `i, j ≤ 2`. -/
theorem window_lt (i j : Nat) (hs : S4x514x514.Slices ![0, i, j] S4x512x512) : i < 3 ∧ j < 3 := by
  obtain ⟨_, h⟩ := hs
  have h1 : i + 512 ≤ 514 := h (1 : Fin 3)
  have h2 : j + 512 ≤ 514 := h (2 : Fin 3)
  omega

/-- The slice of the bordered block at window position (i, j), read at (channel, h, w): the bordered block at (h + i, w + j). -/
theorem slice_apply (i j : Nat) (v : FVec Ideal S4x514x514 .f32) (hs : S4x514x514.Slices ![0, i, j] S4x512x512)
    (cc : Fin 4) (h w : Fin 512) :
    extractStridedSlice S4x512x512 ![0, i, j] v hs (ix3 cc h w)
      = v (ix3 cc ⟨h.val + i, by have := window_lt i j hs; omega⟩ ⟨w.val + j, by have := window_lt i j hs; omega⟩) :=
  extractStridedSlice_apply _ v hs _ _ (fun a => match a with
    | ⟨0, _⟩ => by show cc.val = 0 + cc.val; omega
    | ⟨1, _⟩ => by show h.val + i = i + h.val; omega
    | ⟨2, _⟩ => by show w.val + j = j + w.val; omega)

/-- A [4, 1, 1] slice of the weight block at offsets (0, i, j) exists only for `i, j ≤ 2`. -/
theorem weight_lt (i j : Nat) (hs : S4x3x3.Slices ![0, i, j] S4x1x1) : i < 3 ∧ j < 3 := by
  obtain ⟨_, h⟩ := hs
  have h1 : i + 1 ≤ 3 := h (1 : Fin 3)
  have h2 : j + 1 ≤ 3 := h (2 : Fin 3)
  omega

/-- Weight (i, j) of every channel, cast to a vector and back to a [4, 1, 1] column and broadcast over the plane, read at
    (channel, h, w): the weight block at (channel, i, j). -/
theorem weight_apply (i j : Nat) (v2 : FVec Ideal S4x3x3 .f32) (hs : S4x3x3.Slices ![0, i, j] S4x1x1) (cc : Fin 4) (h w : Fin 512) :
    broadcastTo S4x512x512 (shapeCast S4x1x1 (shapeCast S4 (extractStridedSlice S4x1x1 ![0, i, j] v2 hs) shapeCasts_S4x1x1_S4)
        shapeCasts_S4_S4x1x1) broadcasts_S4x1x1_S4x512x512 (ix3 cc h w)
      = v2 (ix3 cc ⟨i, (weight_lt i j hs).1⟩ ⟨j, (weight_lt i j hs).2⟩) :=
  (broadcastTo_apply _ broadcasts_S4x1x1_S4x512x512 (ix3 cc h w) (ix3 cc (0 : Fin 1) (0 : Fin 1)) (fun a => match a with
      | ⟨0, _⟩ => by show cc.val = if (4 : Nat) = 1 then 0 else cc.val; rw [if_neg (by decide)]
      | ⟨1, _⟩ => by show 0 = if (1 : Nat) = 1 then 0 else h.val; rw [if_pos rfl]
      | ⟨2, _⟩ => by show 0 = if (1 : Nat) = 1 then 0 else w.val; rw [if_pos rfl])).trans
  ((shapeCast_apply _ shapeCasts_S4_S4x1x1 (ix3 cc (0 : Fin 1) (0 : Fin 1)) (ix1 cc) (by
      rw [Shape.rowMajor_val_one, Shape.rowMajor_val_three]
      show cc.val = (cc.val * 1 + 0) * 1 + 0
      omega)).trans
  ((shapeCast_apply _ shapeCasts_S4x1x1_S4 (ix1 cc) (ix3 cc (0 : Fin 1) (0 : Fin 1)) (by
      rw [Shape.rowMajor_val_one, Shape.rowMajor_val_three]
      show (cc.val * 1 + 0) * 1 + 0 = cc.val
      omega)).trans
  (extractStridedSlice_apply _ v2 hs (ix3 cc (0 : Fin 1) (0 : Fin 1)) (ix3 cc ⟨i, (weight_lt i j hs).1⟩ ⟨j, (weight_lt i j hs).2⟩)
    (fun a => match a with
      | ⟨0, _⟩ => by show cc.val = 0 + cc.val; omega
      | ⟨1, _⟩ => by show i = i + 0; omega
      | ⟨2, _⟩ => by show j = j + 0; omega))))

/-- THE BODY'S STORE at (0, channel, h, w): the dilation of the channel's bordered plane of the loaded image block by the
    channel's weights of the loaded weight block, at pixel (h, w). -/
theorem payload_apply (x0 : Vec Ideal S1x4x512x512 .f32) (x1 : Vec Ideal S4x3x3 .f32) (u : Fin 1) (cc : Fin 4) (h w : Fin 512) :
    k0_pay1 (F := Ideal) x1 (k0_pay2 x0) (k0_pay3 x0 x1) (k0_pay4 x0) (k0_pay5 x1) (ix4 u cc h w)
      = dilate (border fun a b => x0 (ix4 (0 : Fin 1) cc a b)) (fun i j => x1 (ix3 cc i j)) h w := by
  unfold k0_pay1 k0_pay3 k0_pay4 k0_pay5
  dsimp only
  rw [shapeCast_abc_1abc_apply]
  simp only [maximumf_apply, addf_apply, slice_apply, weight_apply, bordered_apply]
  rfl

end Cert.KernelIdeal.Block

end
-- ==== Proof.KernelValue.lean ====
/-
  The kernel's result array as one function of its two arguments.

  The grid is 4 x 16: point `t` = (b, q) loads batch `b`, channels `4 q … 4 q + 3` of the image (block (b, q, 0, 0) of
  blocks [1, 4, 512, 512]) and the weights of those channels (block (q, 0, 0) of blocks [4, 3, 3]), and writes back block
  (b, q, 0, 0) of the output. Element (0, cc, h, w) of a block is element (b, 4 q + cc, h, w) of the array, so what point
  `t` writes back is block `t` of the whole-array dilation `G` of the arguments; the 64 output blocks tile the array, so
  the array ends at `G`. @main then reshapes it to [4, 64, 262144].
-/
import proofs.«140813_j43525198578010_1_alg».proof.Proof.Gen.KernelIdeal.Frame
import proofs.«140813_j43525198578010_1_alg».proof.Proof.KernelBlock
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Block Cert.Dilation Idealize.ShloMosaic.ValueIdx

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The three index maps over the grid: the image block and the output block have the same block index (b, q, 0, 0), the
    weight block has index (q, 0, 0), with `b ≤ 3` and `q ≤ 15`. -/
theorem idx_facts : ∀ t : Fin cfg0.N,
    win0_0.index t (0 : Fin 4) = win0_2.index t (0 : Fin 4)
    ∧ win0_0.index t (1 : Fin 4) = win0_2.index t (1 : Fin 4)
    ∧ win0_0.index t (2 : Fin 4) = 0 ∧ win0_0.index t (3 : Fin 4) = 0
    ∧ win0_1.index t (0 : Fin 3) = win0_2.index t (1 : Fin 4)
    ∧ win0_1.index t (1 : Fin 3) = 0 ∧ win0_1.index t (2 : Fin 3) = 0
    ∧ win0_2.index t (0 : Fin 4) ≤ 3 ∧ win0_2.index t (1 : Fin 4) ≤ 15
    ∧ win0_2.index t (2 : Fin 4) = 0 ∧ win0_2.index t (3 : Fin 4) = 0 :=
  (by decide +kernel : ∀ t : Fin grid0.N, _)

/-- Every output block (b, q, 0, 0) is some point's. -/
theorem idx_onto : ∀ (b : Fin 4) (q : Fin 16), ∃ t : Fin cfg0.N, win0_2.index t = ![b.val, q.val, 0, 0] :=
  (by decide +kernel : ∀ (b : Fin 4) (q : Fin 16), ∃ t : Fin grid0.N, win0_2.index t = ![b.val, q.val, 0, 0])

/-- Element (0, cc, a, d) of the image block at point `t` is the image at (b, 4 q + cc, a, d). -/
theorem image_block_apply (c : Dev nD) (t : Fin cfg0.N) (cc : Fin 4) (a d : Fin 512) (k : S4x64x512x512.Idx)
    (hk0 : (k 0).val = win0_2.index t (0 : Fin 4)) (hk1 : (k 1).val = win0_2.index t (1 : Fin 4) * 4 + cc.val)
    (hk2 : (k 2).val = a.val) (hk3 : (k 3).val = d.val) :
    (iblk m c 0 t : Vec Ideal S1x4x512x512 .f32) (ix4 (0 : Fin 1) cc a d) = (V m c main_arg0 : S4x64x512x512.Idx → EReal) k := by
  obtain ⟨e0, e1, e2, e3, -⟩ := idx_facts t
  unfold iblk
  rw [View.read_apply]
  show V m c main_arg0 _ = V m c main_arg0 k
  congr 1
  funext x
  apply Fin.ext
  match x with
  | ⟨0, _⟩ => show win0_0.index t (0 : Fin 4) * 1 + 1 * 0 = (k 0).val; omega
  | ⟨1, _⟩ => show win0_0.index t (1 : Fin 4) * 4 + 1 * cc.val = (k 1).val; omega
  | ⟨2, _⟩ => show win0_0.index t (2 : Fin 4) * 512 + 1 * a.val = (k 2).val; omega
  | ⟨3, _⟩ => show win0_0.index t (3 : Fin 4) * 512 + 1 * d.val = (k 3).val; omega

/-- Element (cc, i, j) of the weight block at point `t` is the weights at (4 q + cc, i, j). -/
theorem weight_block_apply (c : Dev nD) (t : Fin cfg0.N) (cc : Fin 4) (i j : Fin 3) (k : S64x3x3.Idx)
    (hk0 : (k 0).val = win0_2.index t (1 : Fin 4) * 4 + cc.val) (hk1 : (k 1).val = i.val) (hk2 : (k 2).val = j.val) :
    (iblk m c 1 t : Vec Ideal S4x3x3 .f32) (ix3 cc i j) = (V m c main_arg1 : S64x3x3.Idx → EReal) k := by
  obtain ⟨-, -, -, -, e4, e5, e6, -⟩ := idx_facts t
  unfold iblk
  rw [View.read_apply]
  show V m c main_arg1 _ = V m c main_arg1 k
  congr 1
  funext x
  apply Fin.ext
  match x with
  | ⟨0, _⟩ => show win0_1.index t (0 : Fin 3) * 4 + 1 * cc.val = (k 0).val; omega
  | ⟨1, _⟩ => show win0_1.index t (1 : Fin 3) * 3 + 1 * i.val = (k 1).val; omega
  | ⟨2, _⟩ => show win0_1.index t (2 : Fin 3) * 3 + 1 * j.val = (k 2).val; omega

/-- One block of the dilation: if an image block `x0` holds planes `(B, C₀ + cc)` of `X` and a weight block `x1` the weights of
    channels `C₀ + cc` of `Wt`, the body's store at (u, cc, h, w) is `G X Wt` at (B, C₀ + cc, h, w). -/
theorem block_eq (X : (⟨4, ![4, 64, 512, 512]⟩ : Shape).Idx → EReal) (Wt : (⟨3, ![64, 3, 3]⟩ : Shape).Idx → EReal)
    (x0 : Vec Ideal S1x4x512x512 .f32) (x1 : Vec Ideal S4x3x3 .f32) (B : Fin 4) (C : Fin 4 → Fin 64)
    (hx : ∀ (cc : Fin 4) (a d : Fin 512), x0 (ix4 (0 : Fin 1) cc a d) = X (ix4 B (C cc) a d))
    (hw : ∀ (cc : Fin 4) (i j : Fin 3), x1 (ix3 cc i j) = Wt (ix3 (C cc) i j))
    (u : Fin 1) (cc : Fin 4) (h w : Fin 512) :
    k0_pay1 (F := Ideal) x1 (k0_pay2 x0) (k0_pay3 x0 x1) (k0_pay4 x0) (k0_pay5 x1) (ix4 u cc h w) = G X Wt (ix4 B (C cc) h w) := by
  rw [payload_apply, G_ix4]
  unfold at4
  exact dilate_congr (congrArg border (funext fun a => funext fun d => hx cc a d)) (funext fun i => funext fun j => hw cc i j) h w

/-- WHAT POINT `t` WRITES BACK is block `t` of the dilation `G` of the argument arrays as the region finds them. -/
theorem flushed_eq (c : Dev nD) (t : Fin cfg0.N) :
    (dats m 0 c).flushed 2 t = ((cfg0.win 2).blk t).view.read (Elt Ideal) (G (V m c main_arg0) (V m c main_arg1)) := by
  show (cfg0.win 2).cut (grid0.coords t) ((dats m 0 c).after 2 t) = _
  rw [after0_2]
  unfold out0_2
  rw [View.canon_unit_zero hz4]
  simp only [View.ld_unit_zero (S := S1x4x512x512) hz4, View.ld_unit_zero (S := S4x3x3) hz3]
  obtain ⟨e0, e1, e2, e3, e4, e5, e6, b3, q15, z2, z3⟩ := idx_facts t
  funext y
  obtain ⟨u, cc, h, w, rfl⟩ : ∃ (u : Fin 1) (cc : Fin 4) (h w : Fin 512), y = ix4 u cc h w := ⟨y 0, y 1, y 2, y 3, eq_ix4 y⟩
  rw [View.read_apply]
  have hu : u.val = 0 := by omega
  have hemb : ((cfg0.win 2).blk t).view.emb (ix4 u cc h w)
      = ix4 (⟨win0_2.index t (0 : Fin 4), by omega⟩ : Fin 4) (⟨win0_2.index t (1 : Fin 4) * 4 + cc.val, by omega⟩ : Fin 64) h w := by
    funext x
    apply Fin.ext
    match x with
    | ⟨0, _⟩ => show win0_2.index t (0 : Fin 4) * 1 + 1 * u.val = win0_2.index t (0 : Fin 4); omega
    | ⟨1, _⟩ => show win0_2.index t (1 : Fin 4) * 4 + 1 * cc.val = win0_2.index t (1 : Fin 4) * 4 + cc.val; omega
    | ⟨2, _⟩ => show win0_2.index t (2 : Fin 4) * 512 + 1 * h.val = h.val; omega
    | ⟨3, _⟩ => show win0_2.index t (3 : Fin 4) * 512 + 1 * w.val = w.val; omega
  rw [hemb]
  exact block_eq (V m c main_arg0) (V m c main_arg1) (iblk m c 0 t) (iblk m c 1 t) ⟨win0_2.index t (0 : Fin 4), by omega⟩
    (fun cc => ⟨win0_2.index t (1 : Fin 4) * 4 + cc.val, by omega⟩)
    (fun cc a d => image_block_apply m c t cc a d _ rfl rfl rfl rfl)
    (fun cc i j => weight_block_apply m c t cc i j _ rfl rfl rfl)
    u cc h w

/-- An index of the array is in point `t`'s output block iff each coordinate is in the block's range on its axis. -/
theorem mem_blk (t : Fin cfg0.N) (i : S4x64x512x512.Idx) :
    i ∈ ((cfg0.win 2).blk t).view.set ↔ ∀ a : Fin 4, win0_2.index t a * S1x4x512x512.size a ≤ (i a).val
      ∧ (i a).val < win0_2.index t a * S1x4x512x512.size a + S1x4x512x512.size a := by
  show i ∈ ((View.whole main_v0).slice (win0_2.rect t)).set ↔ _
  rw [View.set_slice_whole, Rect.mem_set_unit]
  exact Iff.rfl

/-- The 64 output blocks tile the array: index (b, c, h, w) is in the block of the point with block index (b, c / 4, 0, 0). -/
theorem covered (i : S4x64x512x512.Idx) : ∃ t : Fin cfg0.N, (cfg0.win 2).flush t = true ∧ i ∈ ((cfg0.win 2).blk t).view.set := by
  have hi0 : (i 0).val < 4 := (i 0).isLt
  have hi1 : (i 1).val < 64 := (i 1).isLt
  have hi2 : (i 2).val < 512 := (i 2).isLt
  have hi3 : (i 3).val < 512 := (i 3).isLt
  obtain ⟨t, ht⟩ := idx_onto ⟨(i 0).val, hi0⟩ ⟨(i 1).val / 4, by omega⟩
  have q0 : win0_2.index t (0 : Fin 4) = (i 0).val := congrFun ht 0
  have q1 : win0_2.index t (1 : Fin 4) = (i 1).val / 4 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 4 ≤ (i 1).val ∧ (i 1).val < win0_2.index t (1 : Fin 4) * 4 + 4; omega
  | ⟨2, _⟩ => show win0_2.index t (2 : Fin 4) * 512 ≤ (i 2).val ∧ (i 2).val < win0_2.index t (2 : Fin 4) * 512 + 512; omega
  | ⟨3, _⟩ => show win0_2.index t (3 : Fin 4) * 512 ≤ (i 3).val ∧ (i 3).val < win0_2.index t (3 : Fin 4) * 512 + 512; omega

/-- THE OUTPUT ARRAY after the region: the dilation `G` of the two argument arrays. -/
theorem final (c : Dev nD) : (dats m 0 c).arrAt 2 cfg0.N = G (V m c main_arg0) (V m c main_arg1) :=
  (dats m 0 c).arrAt_eq_of_cover 2 (G (V m c main_arg0) (V m c main_arg1)) (fun t _ => flushed_eq m c t) covered

end Cert.KernelIdeal.Hand

end
-- ==== Proof.KernelRun.lean ====
/-
  The kernel program's run, read: after the region the output array holds the dilation `G` of the arguments, and @main's one
  later line reshapes that array to [4, 64, 262144] — each plane's 512 x 512 pixels laid out as one row of 262144.
-/
import proofs.«140813_j43525198578010_1_alg».proof.Proof.KernelValue

noncomputable section

open Idealize.ShloMosaic Idealize.ShloMosaic.TcCoe Idealize.SL.Sem Idealize.ShloMosaic.StableHlo
open Idealize.ShloMosaic.Pipeline (Dat)

namespace Cert.KernelIdeal.Hand

open Cert.KernelIdeal Cert.KernelIdeal.Gen Cert.Dilation

variable (m : (ℓ : Loc nD τ sig) → Buf (Elt Ideal) ℓ) (ρ : Dev nD → PrngReg)

/-- The result buffer after the line that follows the region: the reshape of the region's output array. -/
theorem tail_eq (c : Dev nD) :
    Pipeline.afterTail₀ cfgs (dats m) 0 (V0 m) [hostOps1] c main_v1
      = shapeCast S4x64x262144 (G (V m c main_arg0) (V m c main_arg1)) shapeCasts_S4x64x512x512_S4x64x262144 := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = (dats m 0 c).arrAt 2 cfg0.N := Pipeline.withArrays_arr spec0 launch0.win.arr_inj c _ _ 2
  rw [e, final]
  rfl

/-- THE RUN of the kernel program at the extended reals: every weakly fair execution of @main terminates with the result buffer at
    the reshaped dilation of the two arguments, and the arguments unchanged. -/
theorem run : θ_run defs (onTc (τ := τ) (main (F := Ideal))) ⟨m, fun _ => 0, ρ⟩ fun r => ∀ c : Dev nD,
      r.2.mem ((c.tc : Thread nD τ).loc main_v1)
        = shapeCast S4x64x262144 (G (m ((c.tc : Thread nD τ).loc main_arg0)) (m ((c.tc : Thread nD τ).loc main_arg1))) shapeCasts_S4x64x512x512_S4x64x262144
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v1 (Pipeline.mem_restRefs_of main_v1 (by decide) (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Hand

end
-- ==== Proof.RefValue.lean ====
/-
  The reference's result before its final reshape, read at an index (b, c, h, w).

  The reference pads the whole [4, 64, 512, 512] array with a border of zeros on its two last axes, slices the padded
  array at the nine window positions (i, j), adds to each slice the weight (c, i, j) — a slice of the [64, 3, 3] weights
  reshaped to a vector and broadcast over batch and plane — and folds the nine sums under `max` in row-major order of
  (i, j). At (b, c, h, w) that is `Cert.Dilation.at4`: the dilation of plane (b, c), bordered, by the weights of channel c.
-/
import proofs.«140813_j43525198578010_1_alg».proof.Proof.Gen.ReferenceIdeal.Read
import proofs.«140813_j43525198578010_1_alg».proof.Proof.Dilation
import Idealize.ShloMosaic.Lib.Pipeline.Value
import Idealize.ShloMosaic.Lib.ValueIdx
import Idealize.ShloMosaic.Lib.KernelVsHost

noncomputable section

namespace Cert.ReferenceIdeal.Dil

open Idealize.ShloMosaic Idealize.ShloMosaic.ValueIdx Cert.ReferenceIdeal Cert.ReferenceIdeal.Gen Cert.ReferenceIdeal.Read Cert.Dilation

/-- The padding value the reference converts from the integer constant 0 is the real number 0. -/
theorem pad_value (i : S_.Idx) : val_main_call0_v0 (F := Ideal) i = (0 : EReal) := by
  rw [val_main_call0_v0_apply, val_main_c_apply]
  show (((0#32 : BitVec 32).toInt : ℝ) : EReal) = 0
  simp

/-- The padded array at (b, c, r, s): the zero border of plane (b, c). -/
theorem padded_apply (x0 : (⟨S4x64x512x512, .f32⟩ : BufTy).Contents (Elt Ideal)) (b : Fin 4) (c : Fin 64) (r s : Fin 514) :
    val_main_v0 (F := Ideal) x0 (ix4 b c r s) = border (fun a d => x0 (ix4 b c a d)) r s := by
  unfold val_main_v0 border
  by_cases hin : (1 ≤ r.val ∧ r.val ≤ 512) ∧ (1 ≤ s.val ∧ s.val ≤ 512)
  · rw [dif_pos hin]
    exact pad_apply_of_inside _ _ _ x0 _ _ _ (ix4 b c r s) (ix4 b c ⟨r.val - 1, by omega⟩ ⟨s.val - 1, by omega⟩) (fun a => match a with
      | ⟨0, _⟩ => by show b.val = 0 + b.val * (0 + 1); omega
      | ⟨1, _⟩ => by show c.val = 0 + c.val * (0 + 1); omega
      | ⟨2, _⟩ => by show r.val = 1 + (r.val - 1) * (0 + 1); omega
      | ⟨3, _⟩ => by show s.val = 1 + (s.val - 1) * (0 + 1); omega)
  · rw [dif_neg hin]
    by_cases hr : 1 ≤ r.val ∧ r.val ≤ 512
    · have hs : ¬(1 ≤ s.val ∧ s.val ≤ 512) := fun h => hin ⟨hr, h⟩
      refine (pad_apply_of_not_inside _ _ _ x0 _ _ _ (ix4 b c r s) (3 : Fin 4) ?_).trans (pad_value _)
      show ¬(1 ≤ s.val ∧ (s.val - 1) % (0 + 1) = 0 ∧ (s.val - 1) / (0 + 1) < 512)
      omega
    · refine (pad_apply_of_not_inside _ _ _ x0 _ _ _ (ix4 b c r s) (2 : Fin 4) ?_).trans (pad_value _)
      show ¬(1 ≤ r.val ∧ (r.val - 1) % (0 + 1) = 0 ∧ (r.val - 1) / (0 + 1) < 512)
      omega

/-- A slice of the padded array at offsets (0, 0, i, j) exists only for `i, j ≤ 2`. -/
theorem window_lt (i j : Nat) (hs : S4x64x514x514.Slices ![0, 0, i, j] S4x64x512x512) : i < 3 ∧ j < 3 := by
  obtain ⟨_, h⟩ := hs
  have h1 : i + 512 ≤ 514 := h (2 : Fin 4)
  have h2 : j + 512 ≤ 514 := h (3 : Fin 4)
  omega

/-- The slice of the padded array at window position (i, j), read at (b, c, h, w): the padded array at (h + i, w + j). -/
theorem slice_apply (i j : Nat) (v : (⟨S4x64x514x514, .f32⟩ : BufTy).Contents (Elt Ideal)) (hs : S4x64x514x514.Slices ![0, 0, i, j] S4x64x512x512)
    (b : Fin 4) (c : Fin 64) (h w : Fin 512) :
    extractStridedSlice S4x64x512x512 ![0, 0, i, j] v hs (ix4 b c h w)
      = v (ix4 b c ⟨h.val + i, by have := window_lt i j hs; omega⟩ ⟨w.val + j, by have := window_lt i j hs; omega⟩) :=
  extractStridedSlice_apply _ v hs _ _ (fun a => match a with
    | ⟨0, _⟩ => by show b.val = 0 + b.val; omega
    | ⟨1, _⟩ => by show c.val = 0 + c.val; omega
    | ⟨2, _⟩ => by show h.val + i = i + h.val; omega
    | ⟨3, _⟩ => by show w.val + j = j + w.val; omega)

/-- A [64, 1, 1] slice of the weights at offsets (0, i, j) exists only for `i, j ≤ 2`. -/
theorem weight_lt (i j : Nat) (hs : S64x3x3.Slices ![0, i, j] S64x1x1) : i < 3 ∧ j < 3 := by
  obtain ⟨_, h⟩ := hs
  have h1 : i + 1 ≤ 3 := h (1 : Fin 3)
  have h2 : j + 1 ≤ 3 := h (2 : Fin 3)
  omega

/-- Weight (i, j) of every channel, reshaped to a vector, laid along the channel axis of a [1, 64, 1, 1] array and broadcast over
    batch and plane, read at (b, c, h, w): the weights at (c, i, j). -/
theorem weight_apply (i j : Nat) (x1 : (⟨S64x3x3, .f32⟩ : BufTy).Contents (Elt Ideal)) (hs : S64x3x3.Slices ![0, i, j] S64x1x1)
    (b : Fin 4) (c : Fin 64) (h w : Fin 512) :
    broadcastInDim S4x64x512x512 ![0, 1, 2, 3] bcast_S1x64x1x1_S4x64x512x512_0_1_2_3
        (broadcastInDim S1x64x1x1 ![1] bcast_S64_S1x64x1x1_1
          (shapeCast S64 (extractStridedSlice S64x1x1 ![0, i, j] x1 hs) shapeCasts_S64x1x1_S64)) (ix4 b c h w)
      = x1 (ix3 c ⟨i, (weight_lt i j hs).1⟩ ⟨j, (weight_lt i j hs).2⟩) :=
  (broadcastInDim_apply _ bcast_S1x64x1x1_S4x64x512x512_0_1_2_3 _ (ix4 b c h w) (ix4 (0 : Fin 1) c (0 : Fin 1) (0 : Fin 1)) (fun a => match a with
      | ⟨0, _⟩ => by show 0 = if (1 : Nat) = 1 then 0 else b.val; rw [if_pos rfl]
      | ⟨1, _⟩ => by show c.val = if (64 : Nat) = 1 then 0 else c.val; rw [if_neg (by decide)]
      | ⟨2, _⟩ => by show 0 = if (1 : Nat) = 1 then 0 else h.val; rw [if_pos rfl]
      | ⟨3, _⟩ => by show 0 = if (1 : Nat) = 1 then 0 else w.val; rw [if_pos rfl])).trans
  ((broadcastInDim_apply _ bcast_S64_S1x64x1x1_1 _ (ix4 (0 : Fin 1) c (0 : Fin 1) (0 : Fin 1)) (ix1 c) (fun a => match a with
      | ⟨0, _⟩ => by show c.val = if (64 : Nat) = 1 then 0 else c.val; rw [if_neg (by decide)])).trans
  ((shapeCast_apply _ shapeCasts_S64x1x1_S64 (ix1 c) (ix3 c (0 : Fin 1) (0 : Fin 1)) (by
      rw [Shape.rowMajor_val_one, Shape.rowMajor_val_three]
      show (c.val * 1 + 0) * 1 + 0 = c.val
      omega)).trans
  (extractStridedSlice_apply _ x1 hs (ix3 c (0 : Fin 1) (0 : Fin 1)) (ix3 c ⟨i, (weight_lt i j hs).1⟩ ⟨j, (weight_lt i j hs).2⟩)
    (fun a => match a with
      | ⟨0, _⟩ => by show c.val = 0 + c.val; omega
      | ⟨1, _⟩ => by show i = i + 0; omega
      | ⟨2, _⟩ => by show j = j + 0; omega))))

/-- THE REFERENCE before its reshape, at (b, c, h, w): the dilation of plane (b, c), bordered, by the weights of channel c. -/
theorem body_apply (x0 : (⟨S4x64x512x512, .f32⟩ : BufTy).Contents (Elt Ideal)) (x1 : (⟨S64x3x3, .f32⟩ : BufTy).Contents (Elt Ideal))
    (b : Fin 4) (c : Fin 64) (h w : Fin 512) :
    val_main_v62 (F := Ideal) x0 x1 (ix4 b c h w) = at4 x0 x1 b c h w := by
  simp only [val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62]
  simp only [maximumf_apply, addf_apply]
  rw [slice_apply 0 0, slice_apply 0 1, slice_apply 0 2, slice_apply 1 0, slice_apply 1 1, slice_apply 1 2, slice_apply 2 0, slice_apply 2 1, slice_apply 2 2]
  rw [weight_apply 0 0, weight_apply 0 1, weight_apply 0 2, weight_apply 1 0, weight_apply 1 1, weight_apply 1 2, weight_apply 2 0, weight_apply 2 1, weight_apply 2 2]
  simp only [padded_apply]
  rfl

/-- The reference before its reshape is the whole-array function `G` of the two arguments. -/
theorem body_eq (x0 : (⟨S4x64x512x512, .f32⟩ : BufTy).Contents (Elt Ideal)) (x1 : (⟨S64x3x3, .f32⟩ : BufTy).Contents (Elt Ideal)) :
    val_main_v62 (F := Ideal) x0 x1 = G x0 x1 := by
  funext k
  obtain ⟨b, c, h, w, rfl⟩ : ∃ (b : Fin 4) (c : Fin 64) (h w : Fin 512), k = ix4 b c h w := ⟨k 0, k 1, k 2, k 3, eq_ix4 k⟩
  rw [body_apply, G_ix4]

end Cert.ReferenceIdeal.Dil

end
-- ==== Proof.lean ====
/-
  Grey-scale dilation by a 3 x 3 structuring element: a Pallas kernel against its jnp reference, over the extended reals.

  Both programs compute, for an image `x : [4, 64, 512, 512]` and weights `wt : [64, 3, 3]`,

      out(b, c, h, w) = max over (i, j) in {0,1,2}^2 of ( xp(b, c, h + i, w + j) + wt(c, i, j) ),

  where `xp` is `x` with a border of zeros one pixel wide on its two last axes, and both return `out` reshaped to
  `[4, 64, 512 * 512]`. The kernel does it four channels at a time on a 4 x 16 grid, building the border inside each block by
  concatenating rows and columns of zeros; the reference pads the whole array once. Both take the nine terms in the same row-major
  order under a left-nested maximum, so the two results are the same term of the arguments at every index: no law of `max` or
  `+` is needed, and the finiteness of the inputs is never used.

  The modules: `Dilation` (the function `G` both programs compute), `KernelBorder` and `KernelBlock` (the kernel body's
  store at an index of its block), `KernelValue` (each block written back is a block of `G`; the blocks tile the array),
  `KernelRun` (the kernel program's run with the reshape that follows the region), `RefValue` (the reference's term is `G`).
  Here: the three frames, the idealization (nothing was rewritten), and the equality of the two results.
-/
import proofs.«140813_j43525198578010_1_alg».proof.Defs
import proofs.«140813_j43525198578010_1_alg».proof.Proof.Gen.Kernel
import proofs.«140813_j43525198578010_1_alg».proof.Proof.Gen.Kernel.Skeleton
import proofs.«140813_j43525198578010_1_alg».proof.Proof.Gen.Kernel.Launch
import proofs.«140813_j43525198578010_1_alg».proof.Proof.Gen.Kernel.Points
import proofs.«140813_j43525198578010_1_alg».proof.Proof.Gen.Kernel.Frame
import proofs.«140813_j43525198578010_1_alg».proof.Proof.Gen.KernelIdeal
import proofs.«140813_j43525198578010_1_alg».proof.Proof.Gen.KernelIdeal.Skeleton
import proofs.«140813_j43525198578010_1_alg».proof.Proof.Gen.KernelIdeal.Launch
import proofs.«140813_j43525198578010_1_alg».proof.Proof.Gen.KernelIdeal.Points
import proofs.«140813_j43525198578010_1_alg».proof.Proof.Gen.KernelIdeal.Frame
import proofs.«140813_j43525198578010_1_alg».proof.Proof.Gen.ReferenceIdeal
import proofs.«140813_j43525198578010_1_alg».proof.Proof.Gen.Pre_finite_inputs
import proofs.«140813_j43525198578010_1_alg».proof.Proof.Gen.ReferenceIdeal.Run
import proofs.«140813_j43525198578010_1_alg».proof.Proof.Gen.ReferenceIdeal.Read
import proofs.«140813_j43525198578010_1_alg».proof.Proof.KernelRun
import proofs.«140813_j43525198578010_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten when it was read at the extended reals. -/
theorem preserves : Cert.preserves_Kernel_KernelIdeal := trivial

/-- From memories that agree on the image and the weights, both programs end with the reshaped dilation `G` of the arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v63_eq, (hagree c).1, (hagree c).2]
  unfold Cert.ReferenceIdeal.Read.val_main_v63
  rw [Cert.ReferenceIdeal.Dil.body_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
